-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x4096 : Shape := ⟨2, ![8192, 4096]⟩
abbrev S4096x4096 : Shape := ⟨2, ![4096, 4096]⟩
abbrev S_ : Shape := ⟨0, ![]⟩

class Facts : Prop where
  bcast_S_S8192x4096 : S_.BroadcastsInDim S8192x4096 (![] : Fin 0 → Fin S8192x4096.rank)
  reducesTo_S8192x4096_S_d0_1 : S8192x4096.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S8192x4096 .f32) (main_arg1 : FVec F S4096x4096 .f32) : IVec S_ 1 :=
  let main_v0 : FVec F S8192x4096 .f32 := Host.absf main_arg0
  let main_cst : FVec F S_ .f32 := constant S_ .f32 0x7F800000#32
  let main_v1 : FVec F S8192x4096 .f32 := broadcastInDim S8192x4096 ![] bcast_S_S8192x4096 main_cst
  let main_v2 : IVec S8192x4096 1 := cmpf .olt main_v0 main_v1
  let main_c : IVec S_ 1 := constantI S_ 1 1#1
  let main_v3 : IVec S_ 1 := (fun x v => Host.reduce IntOp.andi x v reducesTo_S8192x4096_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S8192x4096 : Shape := ⟨2, ![8192, 4096]⟩
abbrev S4096x4096 : Shape := ⟨2, ![4096, 4096]⟩
abbrev S2048x512 : Shape := ⟨2, ![2048, 512]⟩
abbrev S512x1024 : Shape := ⟨2, ![512, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S8192x4096, .f32⟩
  | .local _ .vmem, ⟨0, _⟩ => ⟨S2048x512, .f32⟩
  | .local _ .vmem, ⟨1, _⟩ => ⟨S2048x512, .f32⟩
  | .local _ .vmem, ⟨2, _⟩ => ⟨S512x1024, .f32⟩
  | .local _ .vmem, ⟨3, _⟩ => ⟨S512x1024, .f32⟩
  | .local _ .vmem, ⟨4, _⟩ => ⟨S2048x1024, .f32⟩
  | .local _ .vmem, ⟨5, _⟩ => ⟨S2048x1024, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2048x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

class Facts₀ : Prop where
  inb_S2048x1024_S2048x1024_0_0 : ∀ a, (![0, 0] : Fin 2 → Nat) a + S2048x1024.size a ≤ S2048x1024.size a
  h_S2048x1024 : 0 < S2048x1024.numel
  inb_S2048x512_S2048x512_0_0 : ∀ a, (![0, 0] : Fin 2 → Nat) a + S2048x512.size a ≤ S2048x512.size a
  h_S2048x512 : 0 < S2048x512.numel
  inb_S512x1024_S512x1024_0_0 : ∀ a, (![0, 0] : Fin 2 → Nat) a + S512x1024.size a ≤ S512x1024.size a
  h_S512x1024 : 0 < S512x1024.numel
  bitsLt_bf16_f32 : FTy.bits .bf16 < FTy.bits .f32
  shapeCasts_S2048x1024_S2048x1024 : S2048x1024.ShapeCasts S2048x1024
  dot_S2048x512_S512x1024_S2048x1024_1_0_0_1_n_n_wf : DotDims.WF S2048x512 S512x1024 S2048x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x512.size a ≤ S8192x4096.size a
  hwx0_0 : ∀ i : grid0.Coords, EltTy.bits .f32 = 32 ∨ (Rect.block (s := S8192x4096) S2048x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S4096x4096.size a
  hwx0_1 : ∀ i : grid0.Coords, EltTy.bits .f32 = 32 ∨ (Rect.block (s := S4096x4096) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x1024.size a ≤ S8192x4096.size a
  hwx0_2 : ∀ i : grid0.Coords, EltTy.bits .f32 = 32 ∨ (Rect.block (s := S8192x4096) S2048x1024.size (cc0_transform_2 i) (hinb0_2 i)).WholeWords (EltTy.packing .f32)

variable [Facts₀]

def dot_S2048x512_S512x1024_S2048x1024_1_0_0_1_n_n : DotDims S2048x512 S512x1024 S2048x1024 where
  lhsContracting := [1]
  rhsContracting := [0]
  lhsNonContracting := [0]
  rhsNonContracting := [1]
  lhsBatch := []
  rhsBatch := []
  wf := dot_S2048x512_S512x1024_S2048x1024_1_0_0_1_n_n_wf

abbrev win0_0 : Pipeline.Window sig grid0 :=
  Pipeline.Window.ofSpec (Memref.whole main_arg0) S2048x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S2048x1024.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192x4096 : Shape := ⟨2, ![8192, 4096]⟩
abbrev S4096x4096 : Shape := ⟨2, ![4096, 4096]⟩
abbrev S_ : Shape := ⟨0, ![]⟩

abbrev nBuf : Space → Nat
  | .hbm => 21
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096x4096, .f32⟩
  | .hbm, ⟨2, _⟩ => ⟨S_, .f32⟩
  | .hbm, ⟨3, _⟩ => ⟨S8192x4096, .f32⟩
  | .hbm, ⟨4, _⟩ => ⟨S8192x4096, .i1⟩
  | .hbm, ⟨5, _⟩ => ⟨S_, .f32⟩
  | .hbm, ⟨6, _⟩ => ⟨S_, .f32⟩
  | .hbm, ⟨7, _⟩ => ⟨S8192x4096, .f32⟩
  | .hbm, ⟨8, _⟩ => ⟨S8192x4096, .f32⟩
  | .hbm, ⟨9, _⟩ => ⟨S8192x4096, .f32⟩
  | .hbm, ⟨10, _⟩ => ⟨S8192x4096, .f32⟩
  | .hbm, ⟨11, _⟩ => ⟨S_, .f32⟩
  | .hbm, ⟨12, _⟩ => ⟨S4096x4096, .f32⟩
  | .hbm, ⟨13, _⟩ => ⟨S4096x4096, .i1⟩
  | .hbm, ⟨14, _⟩ => ⟨S_, .f32⟩
  | .hbm, ⟨15, _⟩ => ⟨S_, .f32⟩
  | .hbm, ⟨16, _⟩ => ⟨S4096x4096, .f32⟩
  | .hbm, ⟨17, _⟩ => ⟨S4096x4096, .f32⟩
  | .hbm, ⟨18, _⟩ => ⟨S4096x4096, .f32⟩
  | .hbm, ⟨19, _⟩ => ⟨S4096x4096, .f32⟩
  | .hbm, ⟨20, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_cst_0 : Ref sig .tc := ⟨.hbm, 5, rfl⟩
abbrev main_cst_1 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_v3 : Ref sig .tc := ⟨.hbm, 10, rfl⟩
abbrev main_cst_2 : Ref sig .tc := ⟨.hbm, 11, rfl⟩
abbrev main_v4 : Ref sig .tc := ⟨.hbm, 12, rfl⟩
abbrev main_v5 : Ref sig .tc := ⟨.hbm, 13, rfl⟩
abbrev main_cst_3 : Ref sig .tc := ⟨.hbm, 14, rfl⟩
abbrev main_cst_4 : Ref sig .tc := ⟨.hbm, 15, rfl⟩
abbrev main_call1_v0 : Ref sig .tc := ⟨.hbm, 16, rfl⟩
abbrev main_call1_v1 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩

abbrev nD : Nat := 1
abbrev τ : Topo := Topo.v7x

variable {F : FTy → Type} [FloatOps F]

class Facts₀ : Prop where
  bcast_S_S8192x4096 : S_.BroadcastsInDim S8192x4096 (![] : Fin 0 → Fin S8192x4096.rank)
  bcast_S_S4096x4096 : S_.BroadcastsInDim S4096x4096 (![] : Fin 0 → Fin S4096x4096.rank)
  dot_S8192x4096_S4096x4096_S8192x4096_1_0_0_1_n_n_wf : DotDims.WF S8192x4096 S4096x4096 S8192x4096 [1] [0] [0] [1] [] []

variable [Facts₀]

def dot_S8192x4096_S4096x4096_S8192x4096_1_0_0_1_n_n : DotDims S8192x4096 S4096x4096 S8192x4096 where
  lhsContracting := [1]
  rhsContracting := [0]
  lhsNonContracting := [0]
  rhsNonContracting := [1]
  lhsBatch := []
  rhsBatch := []
  wf := dot_S8192x4096_S4096x4096_S8192x4096_1_0_0_1_n_n_wf

class Facts : Prop extends Facts₀ where

variable [Facts]
-- ==== Proof.SignDot.lean ====
/-
  The function both programs compute, stated with no program in sight.

  An entry `v` is binarized to `sgn v`: the word for 1 where `v ≥ 0`, the word for -1 elsewhere. The result at row `r`,
  column `c` is the dot product of the binarized row `r` of `x` with the binarized column `c` of `w`, a sum over the
  4096 contraction positions. The three f32 words (0, 1, -1) stay words: both programs use the same ones, so their values are
  never needed.

  The one algebraic law the certificate uses is here too: a sum over 4096 positions is the sum, over 8 consecutive stretches
  of 512 positions, of the stretches' sums. It holds in every commutative additive monoid, so on the extended reals it needs
  no finiteness.
-/
import Idealize.ShloMosaic.PureOps.Ideal
import Idealize.ShloMosaic.PureOps.Ideal.Laws
import Idealize.ShloMosaic.Lib.ValueIdx

noncomputable section

namespace Cert.SignDot

open Idealize.ShloMosaic Idealize.ShloMosaic.ValueIdx

/-- The binarization of one entry at the ideal values: 1 where the entry is at least 0, -1 elsewhere. -/
def sgn (v : Ideal .f32) : Ideal .f32 :=
  Scalar.select (FloatOps.cmpf .oge v (FloatOps.ofBits .f32 0x00000000#32))
    (FloatOps.ofBits .f32 0x3F800000#32) (FloatOps.ofBits .f32 0xBF800000#32)

/-- A dot product of binarized entries over `n` contraction positions, the two factors given position by position. -/
def dotOf {n : Nat} (a b : Fin n → Ideal .f32) : Ideal .f32 := ∑ k : Fin n, sgn (a k) * sgn (b k)

/-- THE RESULT: entry (r, c) is the binarized row `r` of `x` against the binarized column `c` of `w`. -/
def signDot (x : (⟨2, ![8192, 4096]⟩ : Shape).Idx → Ideal .f32) (w : (⟨2, ![4096, 4096]⟩ : Shape).Idx → Ideal .f32) :
    (⟨2, ![8192, 4096]⟩ : Shape).Idx → Ideal .f32 :=
  fun i => ∑ k : Fin 4096, sgn (x (ix2 (n0 := 8192) (n1 := 4096) (i 0) k)) * sgn (w (ix2 (n0 := 4096) (n1 := 4096) k (i 1)))

/-- The same at row `r` and column `c` given as coordinates. -/
theorem signDot_apply (x : (⟨2, ![8192, 4096]⟩ : Shape).Idx → Ideal .f32) (w : (⟨2, ![4096, 4096]⟩ : Shape).Idx → Ideal .f32)
    (r : Fin 8192) (c : Fin 4096) :
    signDot x w (ix2 r c) = ∑ k : Fin 4096, sgn (x (ix2 r k)) * sgn (w (ix2 k c)) := rfl

/-- A sum over 4096 positions, stretch by stretch: 8 stretches of 512 consecutive positions. -/
theorem sum_stretches {β : Type*} [AddCommMonoid β] (f : ℕ → β) :
    ∑ k : Fin 4096, f k.val = ∑ s ∈ Finset.range 8, ∑ kk : Fin 512, f (512 * s + kk.val) := by
  calc ∑ k : Fin 4096, f k.val
      = ∑ p : Fin 8 × Fin 512, f ((finProdFinEquiv p : Fin (8 * 512)).val) :=
        (Equiv.sum_comp (finProdFinEquiv : Fin 8 × Fin 512 ≃ Fin (8 * 512)) (fun k => f k.val)).symm
    _ = ∑ s : Fin 8, ∑ kk : Fin 512, f (512 * s.val + kk.val) := by
        rw [Fintype.sum_prod_type]
        refine Finset.sum_congr rfl fun s _ => Finset.sum_congr rfl fun kk _ => ?_
        show f (kk.val + 512 * s.val) = _
        rw [Nat.add_comm]
    _ = _ := (Finset.sum_range (fun s => ∑ kk : Fin 512, f (512 * s + kk.val))).symm

end Cert.SignDot

end
-- ==== Proof.BlockDot.lean ====
/-
  What one grid point adds to its output block.

  The body binarizes its block of `x` (2048 rows, 512 contraction positions) and its block of `w` (512 contraction
  positions, 1024 columns), multiplies the two on the matrix unit into a zero accumulator, and adds the product to what the
  output block held. At the ideal values the rounding to bf16 before the product is the identity and the product is an exact
  sum, so at row `p`, column `q` of the block the new content is the old content plus the dot product of the binarized row
  `p` of the `x` block with the binarized column `q` of the `w` block — 512 terms.
-/
import proofs.«168632_j59528246722736_2_alg».proof.Proof.Gen.KernelIdeal.Skeleton
import proofs.«168632_j59528246722736_2_alg».proof.Proof.Gen.KernelIdeal
import proofs.«168632_j59528246722736_2_alg».proof.Proof.SignDot
import Idealize.ShloMosaic.Lib.Pipeline.Value
import Idealize.ShloMosaic.PureOps.Ideal.Laws
import Idealize.ShloMosaic.Lib.ValueIdx

noncomputable section

namespace Cert.KernelIdeal.BlockValue

open Cert.KernelIdeal Cert.KernelIdeal.Gen Idealize.ShloMosaic Idealize.ShloMosaic.ValueIdx
open Cert.SignDot

local notation "D" => dot_S2048x512_S512x1024_S2048x1024_1_0_0_1_n_n

/-- The left operand's row is the output's row. -/
theorem lhs_row (i : S2048x1024.Idx) (k : (D).contr.Idx) : ((D).lhsIdx i k 0).val = (i 0).val := by
  unfold DotDims.lhsIdx
  rw [dif_neg (show ¬(0 : Fin S2048x512.rank) ∈ (D).lhsBatch by decide),
    dif_pos (show (0 : Fin S2048x512.rank) ∈ (D).lhsNonContracting by decide)]
  rfl

/-- The right operand's column is the output's column. -/
theorem rhs_col (i : S2048x1024.Idx) (k : (D).contr.Idx) : ((D).rhsIdx i k 1).val = (i 1).val := by
  unfold DotDims.rhsIdx
  rw [dif_neg (show ¬(1 : Fin S512x1024.rank) ∈ (D).rhsBatch by decide),
    dif_pos (show (1 : Fin S512x1024.rank) ∈ (D).rhsNonContracting by decide)]
  rfl

/-- The block product into the zero accumulator, at row `p` and column `q`: the sum over the 512 contraction positions of
    the left operand at (p, k) times the right operand at (k, q). -/
theorem matmul_zero_apply (a : FVec Ideal S2048x512 .bf16) (b : FVec Ideal S512x1024 .bf16) (p : Fin 2048) (q : Fin 1024) :
    matmul (D) none a b (constant S2048x1024 .f32 0x00000000#32) (ix2 p q) = ∑ k : Fin 512, a (ix2 p k) * b (ix2 k q) := by
  simp only [matmul]
  rw [Ideal.matmul_constant_zero_apply, ← Equiv.sum_comp (contrEquiv1 (D) 512 rfl rfl).symm]
  refine Finset.sum_congr rfl fun k _ => ?_
  have hk := contrEquiv1_symm_val (D) 512 rfl rfl k
  have el : (D).lhsIdx (ix2 p q) ((contrEquiv1 (D) 512 rfl rfl).symm k) = ix2 p k := funext fun c => Fin.ext (by
    match c with
    | ⟨0, _⟩ => exact lhs_row _ _
    | ⟨1, _⟩ => exact ((D).lhsIdx_val_of_single rfl _ _).trans hk)
  have er : (D).rhsIdx (ix2 p q) ((contrEquiv1 (D) 512 rfl rfl).symm k) = ix2 k q := funext fun c => Fin.ext (by
    match c with
    | ⟨0, _⟩ => exact ((D).rhsIdx_val_of_single rfl _ _).trans hk
    | ⟨1, _⟩ => exact rhs_col _ _)
  rw [el, er]

/-- WHAT THE BODY LEAVES in its output block at (p, q): what the block held there, plus the dot product of the binarized
    row `p` of the `x` block with the binarized column `q` of the `w` block. -/
theorem pay2_apply (x : Vec Ideal S2048x512 .f32) (w : Vec Ideal S512x1024 .f32) (acc : Vec Ideal S2048x1024 .f32)
    (p : Fin 2048) (q : Fin 1024) :
    k0_pay2 (F := Ideal) x w acc (ix2 p q)
      = acc (ix2 p q) + dotOf (fun k : Fin 512 => x (ix2 p k)) (fun k : Fin 512 => w (ix2 k q)) := by
  unfold k0_pay2
  rw [shapeCast_self]
  show acc (ix2 p q) + matmul (F := Ideal) (D) none _ _ (constant S2048x1024 .f32 0x00000000#32) (ix2 p q) = _
  rw [matmul_zero_apply]
  rfl

/-- The reset value of an output block is the zero word everywhere. -/
theorem pay1_apply (j : S2048x1024.Idx) : k0_pay1 (F := Ideal) j = 0 := by
  unfold k0_pay1
  show Ideal.ofBits .f32 0x00000000#32 = 0
  exact Ideal.ofBits_zero_f32

end Cert.KernelIdeal.BlockValue

end
-- ==== Proof.KernelSignDot.lean ====
/-
  The kernel computes `signDot`.

  The grid is 4 × 4 × 8 points in row-major order, so point `t` is (i, j, s) with `i = t / 32`, `j = t / 8 % 4`,
  `s = t % 8`. Its `x` block is rows `2048 i …` and contraction positions `512 s …`; its `w` block is contraction
  positions `512 s …` and columns `1024 j …`; its output block is rows `2048 i …`, columns `1024 j …`, the same for
  the 8 consecutive points of a run, which reset it at `s = 0` and add a block product at every `s`.

  So entry (r, c) of the result is held by the run number `4 (r / 2048) + c / 1024`, at place (r % 2048, c % 1024) of its
  block, and after the run's last point it is 0 plus, for s = 0 … 7, the dot product of the binarized row `r` of `x` with
  the binarized column `c` of `w` over the contraction positions `512 s … 512 s + 511`. The eight stretches make up
  the 4096 positions once each: the sum is `signDot`.
-/
import proofs.«168632_j59528246722736_2_alg».proof.Proof.Gen.KernelIdeal.Value
import proofs.«168632_j59528246722736_2_alg».proof.Proof.BlockDot
import proofs.«168632_j59528246722736_2_alg».proof.Proof.SignDot

noncomputable section

namespace Cert.KernelIdeal.KernelValue

open Cert.KernelIdeal Cert.KernelIdeal.Gen Idealize.ShloMosaic Idealize.ShloMosaic.TcCoe Idealize.SL.Sem
open Idealize.ShloMosaic.ValueIdx Cert.SignDot Cert.KernelIdeal.BlockValue

variable (m : (ℓ : Loc nD τ sig) → Buf (Elt Ideal) ℓ)

/-- The printed index maps of the two input windows, decided over the 128 grid points. -/
theorem in_idx_facts : ∀ t : Fin cfg0.N, win0_0.index t (0 : Fin 2) = t.val / 32 ∧ win0_0.index t (1 : Fin 2) = t.val % 8
    ∧ win0_1.index t (0 : Fin 2) = t.val % 8 ∧ win0_1.index t (1 : Fin 2) = t.val / 8 % 4 :=
  (by decide +kernel : ∀ t : Fin grid0.N, _)

/-- The `x` block of point `t` at row `p` and position `k` is `x` at row `2048 (t / 32) + p` and position
    `512 (t % 8) + k`. -/
theorem xblk_apply (c : Dev nD) (t : Fin cfg0.N) (p : Fin 2048) (k : Fin 512) (r : Fin 8192) (kk : Fin 4096)
    (hr : r.val = 2048 * (t.val / 32) + p.val) (hk : kk.val = 512 * (t.val % 8) + k.val) :
    (iblk m c 0 t : Vec Ideal S2048x512 .f32) (ix2 p k) = m ((c : Thread nD τ).loc main_arg0) (ix2 r kk) := by
  obtain ⟨e0, e1, -, -⟩ := in_idx_facts t
  unfold iblk
  rw [View.read_apply]
  show V m c main_arg0 _ = m (c.tc.loc main_arg0) _
  unfold V
  refine congrArg (m (c.tc.loc main_arg0)) ?_
  funext a
  apply Fin.ext
  match a with
  | ⟨0, _⟩ => show win0_0.index t 0 * 2048 + 1 * p.val = r.val; rw [e0, hr]; omega
  | ⟨1, _⟩ => show win0_0.index t 1 * 512 + 1 * k.val = kk.val; rw [e1, hk]; omega

/-- The `w` block of point `t` at position `k` and column `q` is `w` at position `512 (t % 8) + k` and column
    `1024 (t / 8 % 4) + q`. -/
theorem wblk_apply (c : Dev nD) (t : Fin cfg0.N) (k : Fin 512) (q : Fin 1024) (kk : Fin 4096) (cc : Fin 4096)
    (hk : kk.val = 512 * (t.val % 8) + k.val) (hc : cc.val = 1024 * (t.val / 8 % 4) + q.val) :
    (iblk m c 1 t : Vec Ideal S512x1024 .f32) (ix2 k q) = m ((c : Thread nD τ).loc main_arg1) (ix2 kk cc) := by
  obtain ⟨-, -, e0, e1⟩ := in_idx_facts t
  unfold iblk
  rw [View.read_apply]
  show V m c main_arg1 _ = m (c.tc.loc main_arg1) _
  unfold V
  refine congrArg (m (c.tc.loc main_arg1)) ?_
  funext a
  apply Fin.ext
  match a with
  | ⟨0, _⟩ => show win0_1.index t 0 * 512 + 1 * k.val = kk.val; rw [e0, hk]; omega
  | ⟨1, _⟩ => show win0_1.index t 1 * 1024 + 1 * q.val = cc.val; rw [e1, hc]; omega

/-- WHAT POINT `n` ADDS to its output block at a place: the dot product of the binarized row of its `x` block with the
    binarized column of its `w` block (nothing past the grid, where it is never read). -/
def addend (c : Dev nD) (n : ℕ) (j : S2048x1024.Idx) : Ideal .f32 :=
  if h : n < cfg0.N then
    dotOf (fun k : Fin 512 => (iblk m c 0 ⟨n, h⟩ : Vec Ideal S2048x512 .f32) (ix2 (n0 := 2048) (n1 := 512) (j 0) k))
      (fun k : Fin 512 => (iblk m c 1 ⟨n, h⟩ : Vec Ideal S512x1024 .f32) (ix2 (n0 := 512) (n1 := 1024) k (j 1)))
  else 0

/-- A run's first point leaves 0 plus its addend. -/
theorem reset_apply (c : Dev nD) (n : ℕ) (h : n < cfg0.N) (j : S2048x1024.Idx) :
    Value.reset2 m c n h j = (0 : Ideal .f32) + addend m c n j := by
  obtain ⟨p, q, rfl⟩ : ∃ (p : Fin 2048) (q : Fin 1024), j = ix2 p q := ⟨j 0, j 1, eq_ix2 j⟩
  unfold Value.reset2 addend
  rw [dif_pos h, pay2_apply, pay1_apply]

/-- Every later point of a run leaves what the point before left plus its addend. -/
theorem step_apply (c : Dev nD) (n : ℕ) (h : n < cfg0.N) (acc : Vec Ideal S2048x1024 .f32) (j : S2048x1024.Idx) :
    Value.step2 m c n h acc j = acc j + addend m c n j := by
  obtain ⟨p, q, rfl⟩ : ∃ (p : Fin 2048) (q : Fin 1024), j = ix2 p q := ⟨j 0, j 1, eq_ix2 j⟩
  unfold Value.step2 addend
  rw [dif_pos h, pay2_apply]

/-- The terms of the dot product of the binarized row `r` of `x` with the binarized column `cc` of `w`, by contraction
    position (0 past the last position, where it is never read). -/
def term (c : Dev nD) (r : Fin 8192) (cc : Fin 4096) (n : ℕ) : Ideal .f32 :=
  if hn : n < 4096 then
    sgn (m ((c : Thread nD τ).loc main_arg0) (ix2 r ⟨n, hn⟩)) * sgn (m ((c : Thread nD τ).loc main_arg1) (ix2 ⟨n, hn⟩ cc))
  else 0

/-- The addend of point `8 b + s` of the run holding entry (r, c), at that entry's place: the stretch `512 s …` of the
    dot product of the binarized row `r` of `x` with the binarized column `c` of `w`. -/
theorem addend_apply (c : Dev nD) (r : Fin 8192) (cc : Fin 4096) (s : ℕ) (hs : s < 8)
    (p : Fin 2048) (q : Fin 1024) (hp : p.val = r.val % 2048) (hq : q.val = cc.val % 1024) :
    addend m c (8 * (4 * (r.val / 2048) + cc.val / 1024) + s) (ix2 p q)
      = ∑ k : Fin 512, term m c r cc (512 * s + k.val) := by
  have hr := r.isLt
  have hc := cc.isLt
  have hN : cfg0.N = 128 := N_0
  have hlt : 8 * (4 * (r.val / 2048) + cc.val / 1024) + s < cfg0.N := by rw [hN]; omega
  unfold addend
  rw [dif_pos hlt]
  unfold dotOf
  refine Finset.sum_congr rfl fun k _ => ?_
  have hk := k.isLt
  have hn : 512 * s + k.val < 4096 := by omega
  show sgn ((iblk m c 0 ⟨_, hlt⟩ : Vec Ideal S2048x512 .f32) (ix2 p k)) * sgn ((iblk m c 1 ⟨_, hlt⟩ : Vec Ideal S512x1024 .f32) (ix2 k q)) = _
  rw [xblk_apply m c ⟨_, hlt⟩ p k r ⟨512 * s + k.val, hn⟩ (by show r.val = 2048 * ((8 * (4 * (r.val / 2048) + cc.val / 1024) + s) / 32) + p.val; omega)
      (by show 512 * s + k.val = 512 * ((8 * (4 * (r.val / 2048) + cc.val / 1024) + s) % 8) + k.val; omega),
    wblk_apply m c ⟨_, hlt⟩ k q ⟨512 * s + k.val, hn⟩ cc (by show 512 * s + k.val = 512 * ((8 * (4 * (r.val / 2048) + cc.val / 1024) + s) % 8) + k.val; omega)
      (by show cc.val = 1024 * ((8 * (4 * (r.val / 2048) + cc.val / 1024) + s) / 8 % 4) + q.val; omega)]
  unfold term
  rw [dif_pos hn]

/-- THE KERNEL'S RESULT ARRAY is `signDot` of its two argument arrays. -/
theorem result_eq (c : Dev nD) :
    Value.G2 m c = signDot (m ((c : Thread nD τ).loc main_arg0)) (m ((c : Thread nD τ).loc main_arg1)) := by
  funext i
  obtain ⟨r, cc, rfl⟩ : ∃ (r : Fin 8192) (cc : Fin 4096), i = ix2 r cc := ⟨i 0, i 1, eq_ix2 i⟩
  have hr := r.isLt
  have hc := cc.isLt
  have hN : cfg0.N = 128 := N_0
  have hrun : Value.run2Of (ix2 r cc) = 4 * (r.val / 2048) + cc.val / 1024 := by
    show 4 * (r.val / 2048 - 0) + 1 * (cc.val / 1024 - 0) = _
    omega
  have hlt : 8 * Value.run2Of (ix2 r cc) + 7 < cfg0.N := by rw [hrun, hN]; omega
  have hloc : Value.loc2Of (ix2 r cc) = ix2 (⟨r.val % 2048, Nat.mod_lt _ (by decide)⟩ : Fin 2048) (⟨cc.val % 1024, Nat.mod_lt _ (by decide)⟩ : Fin 1024) :=
    funext fun a => by
      match a with
      | ⟨0, _⟩ => rfl
      | ⟨1, _⟩ => rfl
  unfold Value.G2
  rw [dif_pos hlt]
  rw [Pipeline.accAt_add_apply (Value.reset2 m c) (Value.step2 m c) (fun _ => (0 : Ideal .f32)) (addend m c)
    (8 * Value.run2Of (ix2 r cc)) 7 (fun h j => reset_apply m c _ h j) (fun n h acc j _ _ => step_apply m c n h acc j)
    7 le_rfl hlt (Value.loc2Of (ix2 r cc))]
  rw [zero_add, hloc, hrun, signDot_apply]
  rw [Finset.sum_congr rfl fun s hs => addend_apply m c r cc s (by simpa using hs) _ _ rfl rfl]
  exact (sum_stretches (term m c r cc)).symm.trans (Finset.sum_congr rfl fun k _ => by unfold term; rw [dif_pos k.isLt])

end Cert.KernelIdeal.KernelValue

end
-- ==== Proof.RefSignDot.lean ====
/-
  The reference computes `signDot`.

  Its last operation is one `dot_general` contracting the 4096 columns of the first operand with the 4096 rows of the second;
  each operand is the argument array binarized entry by entry (a comparison with the splat of the zero word, then a choice
  between the splats of the words for 1 and -1; the conversion after it changes nothing). Read at an index, that is the sum
  `signDot` names.
-/
import proofs.«168632_j59528246722736_2_alg».proof.Proof.Gen.ReferenceIdeal.Read
import proofs.«168632_j59528246722736_2_alg».proof.Proof.SignDot

noncomputable section

namespace Cert.ReferenceIdeal.RefValue

open Cert.ReferenceIdeal Cert.ReferenceIdeal.Gen Cert.ReferenceIdeal.Read Idealize.ShloMosaic Idealize.ShloMosaic.ValueIdx
open Cert.SignDot

/-- The first operand of the contraction, at an index: the binarized entry of `x` there. -/
theorem lhs_apply (X : (⟨S8192x4096, .f32⟩ : BufTy).Contents (Elt Ideal)) (j : S8192x4096.Idx) :
    val_main_v3 (F := Ideal) X j = sgn (X j) := by
  rw [val_main_v3_apply, val_main_v2_apply, val_main_v1_apply, val_main_v0_apply, val_main_cst_apply,
    val_main_call0_v0_apply, val_main_cst_0_apply, val_main_call0_v1_apply, val_main_cst_1_apply]
  rfl

/-- The second operand of the contraction, at an index: the binarized entry of `w` there. -/
theorem rhs_apply (W : (⟨S4096x4096, .f32⟩ : BufTy).Contents (Elt Ideal)) (j : S4096x4096.Idx) :
    val_main_v7 (F := Ideal) W j = sgn (W j) := by
  rw [val_main_v7_apply, val_main_v6_apply, val_main_v5_apply, val_main_v4_apply, val_main_cst_2_apply,
    val_main_call1_v0_apply, val_main_cst_3_apply, val_main_call1_v1_apply, val_main_cst_4_apply]
  rfl

/-- The reference's result, as a function of its two argument arrays, is `signDot`. -/
theorem ref_eq (X : (⟨S8192x4096, .f32⟩ : BufTy).Contents (Elt Ideal)) (W : (⟨S4096x4096, .f32⟩ : BufTy).Contents (Elt Ideal)) :
    val_main_v8 (F := Ideal) X W = signDot X W := by
  funext i
  obtain ⟨r, c, rfl⟩ : ∃ (r : Fin 8192) (c : Fin 4096), i = ix2 r c := ⟨i 0, i 1, eq_ix2 i⟩
  rw [val_main_v8_apply, signDot_apply]
  refine Finset.sum_congr rfl fun k _ => ?_
  have hl : lidx_main_v8 (ix2 r c) k = ix2 r k := funext fun a => by
    match a with
    | ⟨0, _⟩ => rfl
    | ⟨1, _⟩ => rfl
  have hr : ridx_main_v8 (ix2 r c) k = ix2 k c := funext fun a => by
    match a with
    | ⟨0, _⟩ => rfl
    | ⟨1, _⟩ => rfl
  rw [hl, hr, lhs_apply, rhs_apply]

end Cert.ReferenceIdeal.RefValue

end
-- ==== Proof.lean ====
/-
  The certificate of a binarized matrix product: `sign(x) · sign(w)` with `sign v` = 1 where `v ≥ 0` and -1 elsewhere,
  for `x` of 8192 × 4096 and `w` of 4096 × 4096.

  The kernel tiles the product: a grid of 4 × 4 × 8 points, each output block of 2048 × 1024 entries reset at the first of
  its 8 points and increased at every point by the product of a 2048 × 512 block of binarized `x` with a 512 × 1024 block
  of binarized `w` (the operands rounded to bf16 on the way into the matrix unit). The reference binarizes both arrays
  whole and contracts them in one `dot_general`.

  At the ideal values the rounding is the identity and both products are exact sums, so both programs compute one
  function, `signDot` (Proof/SignDot.lean): the reference because its contraction read at an index is that sum
  (Proof/RefSignDot.lean), the kernel because the eight block products of a run add up, stretch by stretch of 512
  contraction positions, to the same sum (Proof/BlockDot.lean for one point, Proof/KernelSignDot.lean for the run and the
  array). The only law used is that a finite sum may be split into consecutive stretches, which holds on the extended
  reals without any finiteness, so the precondition is never opened.

  The three frames are the programs' runs with the results dropped; the idealization rewrote nothing, so `preserves` is
  trivial.
-/
import proofs.«168632_j59528246722736_2_alg».proof.Defs
import proofs.«168632_j59528246722736_2_alg».proof.Proof.Gen.Kernel.Frame
import proofs.«168632_j59528246722736_2_alg».proof.Proof.Gen.KernelIdeal.Value
import proofs.«168632_j59528246722736_2_alg».proof.Proof.Gen.Pre_finite_inputs
import proofs.«168632_j59528246722736_2_alg».proof.Proof.Gen.ReferenceIdeal.Run
import proofs.«168632_j59528246722736_2_alg».proof.Proof.KernelSignDot
import proofs.«168632_j59528246722736_2_alg».proof.Proof.RefSignDot
import Idealize.ShloMosaic.Adequacy
import Idealize.ShloMosaic.Init

noncomputable section

namespace Cert.Proof

open Idealize.ShloMosaic Idealize.SL.Sem

theorem frame_KernelIdeal : frame_KernelIdeal := fun m ρ _ =>
  (θ_run Cert.KernelIdeal.defs _ _).mono (fun _ h c => (h c).2) (Cert.KernelIdeal.Value.run (F := Ideal) m ρ)

theorem frame_ReferenceIdeal : frame_ReferenceIdeal := fun m ρ _ =>
  (θ_run Cert.ReferenceIdeal.defs _ _).mono (fun _ h c => (h c).2) (Cert.ReferenceIdeal.Value.run (F := Ideal) m ρ)

/-- Both runs end with the result array at `signDot` of the kernel's argument arrays: the kernel by the fold of its runs
    of grid points, the reference by its contraction read at an index, its arguments being the kernel's. -/
theorem algebraic_KernelIdeal_ReferenceIdeal : algebraic_KernelIdeal_ReferenceIdeal := by
  intro m ρ m' ρ' _ hagree
  refine ⟨fun c => Cert.SignDot.signDot (m ((c.tc : Thread Cert.KernelIdeal.nD Cert.KernelIdeal.τ).loc Cert.KernelIdeal.main_arg0))
    (m ((c.tc : Thread Cert.KernelIdeal.nD Cert.KernelIdeal.τ).loc Cert.KernelIdeal.main_arg1)), ?_, ?_⟩
  · exact (θ_run Cert.KernelIdeal.defs _ _).mono
      (fun _ h c => ⟨(h c).1.trans (Cert.KernelIdeal.KernelValue.result_eq m c), (h c).2⟩)
      (Cert.KernelIdeal.Value.run (F := Ideal) m ρ)
  · refine (θ_run Cert.ReferenceIdeal.defs _ _).mono (fun _ h c => ⟨?_, (h c).2⟩)
      (Cert.ReferenceIdeal.Value.run (F := Ideal) m' ρ')
    rw [(h c).1, Cert.ReferenceIdeal.Read.val_main_v8_eq, Cert.ReferenceIdeal.RefValue.ref_eq, (hagree c).1, (hagree c).2]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ, frame_KernelIdeal, frame_ReferenceIdeal, (trivial : preserves_Kernel_KernelIdeal), algebraic_KernelIdeal_ReferenceIdeal⟩

end Cert.Proof

end
